-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x1600000 : Shape := ⟨2, ![2, 1600000]⟩
abbrev S100000 : Shape := ⟨1, ![100000]⟩
abbrev S128x50 : Shape := ⟨2, ![128, 50]⟩
abbrev S128 : Shape := ⟨1, ![128]⟩
abbrev S128x128 : Shape := ⟨2, ![128, 128]⟩
abbrev S4x128 : Shape := ⟨2, ![4, 128]⟩
abbrev S4 : Shape := ⟨1, ![4]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg13 : FVec F S4 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4 .f32 := Host.absf main_arg13
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S4x128 .f32) (main_arg13 : FVec F S4 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S4x128 .f32) (main_arg13 : FVec F S4 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x50 .f32) (main_arg1 : IVec S2x1600000 32) (main_arg2 : IVec S100000 32) (main_arg3 : FVec F S128x50 .f32) (main_arg4 : FVec F S128 .f32) (main_arg5 : FVec F S128x50 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S4x128 .f32) (main_arg13 : FVec F S4 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S128x50 .f32 := Host.absf main_arg3
  let main_cst_0 : FVec F S_ .f32 := constant S_ .f32 0x7F800000#32
  let main_v5 : FVec F S128x50 .f32 := broadcastInDim S128x50 ![] bcast_S_S128x50 main_cst_0
  let main_v6 : IVec S128x50 1 := cmpf .olt main_v4 main_v5
  let main_c_1 : IVec S_ 1 := constantI S_ 1 1#1
  let main_v7 : IVec S_ 1 := (fun x v => Host.reduce IntOp.andi x v reducesTo_S128x50_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x50 .f32 := Host.absf main_arg5
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg6 main_arg7 main_arg8 main_arg9 main_arg10 main_arg11 main_arg12 main_arg13 main_v13 main_v16
-- ==== Kernel.lean ====
abbrev S100000x50 : Shape := ⟨2, ![100000, 50]⟩
abbrev S2x1600000 : Shape := ⟨2, ![2, 1600000]⟩
abbrev S100000 : Shape := ⟨1, ![100000]⟩
abbrev S128x50 : Shape := ⟨2, ![128, 50]⟩
abbrev S128 : Shape := ⟨1, ![128]⟩
abbrev S128x128 : Shape := ⟨2, ![128, 128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x50 : Shape := ⟨2, ![1600000, 50]⟩
abbrev S50x128 : Shape := ⟨2, ![50, 128]⟩
abbrev S100000x128 : Shape := ⟨2, ![100000, 128]⟩
abbrev S5000x50 : Shape := ⟨2, ![5000, 50]⟩
abbrev S5000x128 : Shape := ⟨2, ![5000, 128]⟩
abbrev S1x128 : Shape := ⟨2, ![1, 128]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S128x4 : Shape := ⟨2, ![128, 4]⟩
abbrev S512x4 : Shape := ⟨2, ![512, 4]⟩
abbrev S1x4 : Shape := ⟨2, ![1, 4]⟩

abbrev nBuf : Space → Nat
  | .hbm => 91
  | .vmem => 31
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S100000, .i32⟩
  | .hbm, ⟨3, _⟩ => ⟨S128x50, .f32⟩
  | .hbm, ⟨4, _⟩ => ⟨S128, .f32⟩
  | .hbm, ⟨5, _⟩ => ⟨S128x50, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S4x128, .f32⟩
  | .hbm, ⟨13, _⟩ => ⟨S4, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x50, .f32⟩
  | .hbm, ⟨27, _⟩ => ⟨S_, .f32⟩
  | .hbm, ⟨28, _⟩ => ⟨S100000x50, .f32⟩
  | .hbm, ⟨29, _⟩ => ⟨S1600000x1, .i32⟩
  | .hbm, ⟨30, _⟩ => ⟨S100000x50, .f32⟩
  | .hbm, ⟨31, _⟩ => ⟨S50x128, .f32⟩
  | .hbm, ⟨32, _⟩ => ⟨S50x128, .bf16⟩
  | .hbm, ⟨33, _⟩ => ⟨S50x128, .f32⟩
  | .hbm, ⟨34, _⟩ => ⟨S50x128, .bf16⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .f32⟩
  | .hbm, ⟨50, _⟩ => ⟨S128x128, .bf16⟩
  | .hbm, ⟨51, _⟩ => ⟨S128x128, .f32⟩
  | .hbm, ⟨52, _⟩ => ⟨S128x128, .bf16⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S128x128, .f32⟩
  | .hbm, ⟨68, _⟩ => ⟨S128x128, .bf16⟩
  | .hbm, ⟨69, _⟩ => ⟨S128x128, .f32⟩
  | .hbm, ⟨70, _⟩ => ⟨S128x128, .bf16⟩
  | .hbm, ⟨71, _⟩ => ⟨S100000x128, .f32⟩
  | .hbm, ⟨72, _⟩ => ⟨S_, .f32⟩
  | .hbm, ⟨73, _⟩ => ⟨S512x128, .f32⟩
  | .hbm, ⟨74, _⟩ => ⟨S100000x1, .i32⟩
  | .hbm, ⟨75, _⟩ => ⟨S512x128, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S512, .f32⟩
  | .hbm, ⟨80, _⟩ => ⟨S100000x1, .i32⟩
  | .hbm, ⟨81, _⟩ => ⟨S512, .f32⟩
  | .hbm, ⟨82, _⟩ => ⟨S_, .f32⟩
  | .hbm, ⟨83, _⟩ => ⟨S512, .f32⟩
  | .hbm, ⟨84, _⟩ => ⟨S512, .f32⟩
  | .hbm, ⟨85, _⟩ => ⟨S512x1, .f32⟩
  | .hbm, ⟨86, _⟩ => ⟨S512x128, .f32⟩
  | .hbm, ⟨87, _⟩ => ⟨S512x128, .f32⟩
  | .hbm, ⟨88, _⟩ => ⟨S128x4, .f32⟩
  | .hbm, ⟨89, _⟩ => ⟨S128x4, .bf16⟩
  | .hbm, ⟨90, _⟩ => ⟨S512x4, .f32⟩
  | .local _ .vmem, ⟨0, _⟩ => ⟨S5000x50, .f32⟩
  | .local _ .vmem, ⟨1, _⟩ => ⟨S5000x50, .f32⟩
  | .local _ .vmem, ⟨2, _⟩ => ⟨S5000x50, .f32⟩
  | .local _ .vmem, ⟨3, _⟩ => ⟨S5000x50, .f32⟩
  | .local _ .vmem, ⟨4, _⟩ => ⟨S50x128, .bf16⟩
  | .local _ .vmem, ⟨5, _⟩ => ⟨S128, .f32⟩
  | .local _ .vmem, ⟨6, _⟩ => ⟨S50x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S128, .f32⟩
  | .local _ .vmem, ⟨24, _⟩ => ⟨S128x128, .bf16⟩
  | .local _ .vmem, ⟨25, _⟩ => ⟨S5000x128, .f32⟩
  | .local _ .vmem, ⟨26, _⟩ => ⟨S5000x128, .f32⟩
  | .local _ .vmem, ⟨27, _⟩ => ⟨S512x128, .f32⟩
  | .local _ .vmem, ⟨28, _⟩ => ⟨S128x4, .bf16⟩
  | .local _ .vmem, ⟨29, _⟩ => ⟨S4, .f32⟩
  | .local _ .vmem, ⟨30, _⟩ => ⟨S512x4, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x4 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  transposes_S128x50_S50x128_1_0 : S128x50.Transposes [1, 0] S50x128
  bitsLt_bf16_f32 : FTy.bits .bf16 < FTy.bits .f32
  inb_S5000x50_S5000x50_0_0 : ∀ a, (![0, 0] : Fin 2 → Nat) a + S5000x50.size a ≤ S5000x50.size a
  h_S5000x50 : 0 < S5000x50.numel
  shapeCasts_S5000x50_S5000x50 : S5000x50.ShapeCasts S5000x50
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S4x128_S128x4_1_0 : S4x128.Transposes [1, 0] S128x4
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4_S4_0 : ∀ a, (![0] : Fin 1 → Nat) a + S4.size a ≤ S4.size a
  h_S4 : 0 < S4.numel
  shapeCasts_S4_S1x4 : S4.ShapeCasts S1x4
  broadcasts_S1x4_S512x4 : S1x4.Broadcasts S512x4
  inb_S512x4_S512x4_0_0 : ∀ a, (![0, 0] : Fin 2 → Nat) a + S512x4.size a ≤ S512x4.size a
  h_S512x4 : 0 < S512x4.numel
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S5000x50_S50x128_S5000x128_1_0_0_1_n_n_wf : DotDims.WF S5000x50 S50x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x4_S512x4_1_0_0_1_n_n_wf : DotDims.WF S512x128 S128x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x50.size a ≤ S100000x50.size a
  hwx0_0 : ∀ i : grid0.Coords, EltTy.bits .f32 = 32 ∨ (Rect.block (s := S100000x50) S5000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x50.size a ≤ S100000x50.size a
  hwx0_1 : ∀ i : grid0.Coords, EltTy.bits .f32 = 32 ∨ (Rect.block (s := S100000x50) S5000x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .bf16 = 32 ∨ (Rect.block (s := S50x128) S50x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x128.size a ≤ S50x128.size a
  hwx0_4 : ∀ i : grid0.Coords, EltTy.bits .bf16 = 32 ∨ (Rect.block (s := S50x128) S50x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x4.size a ≤ S128x4.size a
  hwx3_1 : ∀ i : grid3.Coords, EltTy.bits .bf16 = 32 ∨ (Rect.block (s := S128x4) S128x4.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4.size a ≤ S4.size a
  hwx3_2 : ∀ i : grid3.Coords, EltTy.bits .f32 = 32 ∨ (Rect.block (s := S4) S4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x4.size a ≤ S512x4.size a
  hwx3_3 : ∀ i : grid3.Coords, EltTy.bits .f32 = 32 ∨ (Rect.block (s := S512x4) S512x4.size (cc3_transform_3 i) (hinb3_3 i)).WholeWords (EltTy.packing .f32)

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S5000x50_S50x128_S5000x128_1_0_0_1_n_n : DotDims S5000x50 S50x128 S5000x128 where
  lhsContracting := [1]
  rhsContracting := [0]
  lhsNonContracting := [0]
  rhsNonContracting := [1]
  lhsBatch := []
  rhsBatch := []
  wf := dot_S5000x50_S50x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x4_S512x4_1_0_0_1_n_n : DotDims S512x128 S128x4 S512x4 where
  lhsContracting := [1]
  rhsContracting := [0]
  lhsNonContracting := [0]
  rhsNonContracting := [1]
  lhsBatch := []
  rhsBatch := []
  wf := dot_S512x128_S128x4_S512x4_1_0_0_1_n_n_wf

abbrev win0_0 : Pipeline.Window sig grid0 :=
  Pipeline.Window.ofSpec (Memref.whole main_v13) S5000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S50x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S512x4.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x50 : Shape := ⟨2, ![100000, 50]⟩
abbrev S2x1600000 : Shape := ⟨2, ![2, 1600000]⟩
abbrev S100000 : Shape := ⟨1, ![100000]⟩
abbrev S128x50 : Shape := ⟨2, ![128, 50]⟩
abbrev S128 : Shape := ⟨1, ![128]⟩
abbrev S128x128 : Shape := ⟨2, ![128, 128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x50 : Shape := ⟨2, ![1600000, 50]⟩
abbrev S50x128 : Shape := ⟨2, ![50, 128]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S128x4 : Shape := ⟨2, ![128, 4]⟩
abbrev S512x4 : Shape := ⟨2, ![512, 4]⟩
abbrev S1x4 : Shape := ⟨2, ![1, 4]⟩

abbrev nBuf : Space → Nat
  | .hbm => 108
  | .vmem => 0
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S100000, .i32⟩
  | .hbm, ⟨3, _⟩ => ⟨S128x50, .f32⟩
  | .hbm, ⟨4, _⟩ => ⟨S128, .f32⟩
  | .hbm, ⟨5, _⟩ => ⟨S128x50, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S4x128, .f32⟩
  | .hbm, ⟨13, _⟩ => ⟨S4, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x50, .f32⟩
  | .hbm, ⟨27, _⟩ => ⟨S_, .f32⟩
  | .hbm, ⟨28, _⟩ => ⟨S100000x50, .f32⟩
  | .hbm, ⟨29, _⟩ => ⟨S1600000x1, .i32⟩
  | .hbm, ⟨30, _⟩ => ⟨S100000x50, .f32⟩
  | .hbm, ⟨31, _⟩ => ⟨S50x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S50x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S128x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S512x128, .f32⟩
  | .hbm, ⟨89, _⟩ => ⟨S100000x1, .i32⟩
  | .hbm, ⟨90, _⟩ => ⟨S512x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S512, .f32⟩
  | .hbm, ⟨95, _⟩ => ⟨S100000x1, .i32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x128, .f32⟩
  | .hbm, ⟨102, _⟩ => ⟨S512x128, .f32⟩
  | .hbm, ⟨103, _⟩ => ⟨S128x4, .f32⟩
  | .hbm, ⟨104, _⟩ => ⟨S512x4, .f32⟩
  | .hbm, ⟨105, _⟩ => ⟨S1x4, .f32⟩
  | .hbm, ⟨106, _⟩ => ⟨S512x4, .f32⟩
  | .hbm, ⟨107, _⟩ => ⟨S512x4, .f32⟩
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  transposes_S128x50_S50x128_1_0 : S128x50.Transposes [1, 0] S50x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S4x128_S128x4_1_0 : S4x128.Transposes [1, 0] S128x4
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S100000x50_S50x128_S100000x128_1_0_0_1_n_n_wf : DotDims.WF S100000x50 S50x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x4_S512x4_1_0_0_1_n_n_wf : DotDims.WF S512x128 S128x4 S512x4 [1] [0] [0] [1] [] []

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S100000x50_S50x128_S100000x128_1_0_0_1_n_n : DotDims S100000x50 S50x128 S100000x128 where
  lhsContracting := [1]
  rhsContracting := [0]
  lhsNonContracting := [0]
  rhsNonContracting := [1]
  lhsBatch := []
  rhsBatch := []
  wf := dot_S100000x50_S50x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x4_S512x4_1_0_0_1_n_n : DotDims S512x128 S128x4 S512x4 where
  lhsContracting := [1]
  rhsContracting := [0]
  lhsNonContracting := [0]
  rhsNonContracting := [1]
  lhsBatch := []
  rhsBatch := []
  wf := dot_S512x128_S128x4_S512x4_1_0_0_1_n_n_wf

class Facts : Prop extends Facts₀ where

variable [Facts]
-- ==== Proof.KernelRun.lean ====
/-
  The idealized kernel's whole run with its result array named.

  The program is four kernel regions among stretches of host operations. Every weakly fair execution from a memory with
  zero counters terminates without a fault; the argument arrays end as launched, and the result array ends at the
  contents the last boundary of the run assigns to it: what the read-out region's write-backs leave, the region having
  been entered at the contents the stretches and regions before it produce from the launch memory.
-/
import proofs.«134977_j7816840479101_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run_named : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Named

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«134977_j7816840479101_1_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.Layers.lean ====
/-
  The dense half of a graph convolution, the mean pool's quotient and the read-out layer, as functions of whole arrays
  spelt with the host's operations, and each read at one entry.

  * The dense half of a layer of width d: from the neighbour sums A and the node features X (both N × d), two weight
    matrices already turned to d × 128 and a bias of length 128, the N × 128 array (A·W + b) + X·W'. Entry (r, j) is
    (∑_q A_{r,q} W_{q,j} + b_j) + ∑_q X_{r,q} W'_{q,j}.
  * The read-out: P·W + b for a 512 × 128 array P and a 128 × 4 matrix W; entry (r, j) is ∑_q P_{r,q} W_{q,j} + b_j.
  * The rectifier max(h, 0) entry by entry.

  The weights' element format is left open: at the ideal values a change of format is the identity, so the same
  functions read a program that rounds the weights to a narrower format first and one that does not.
-/
import proofs.«134977_j7816840479101_1_alg».proof.ReferenceIdeal
import proofs.«134977_j7816840479101_1_alg».proof.Proof.Gen.ReferenceIdeal
import proofs.«134977_j7816840479101_1_alg».proof.Proof.LibRowOps
import Idealize.ShloMosaic.PureOps.Ideal
import Idealize.ShloMosaic.Lib.ValueIdx
import Idealize.ShloMosaic.Lib.StackMember

noncomputable section

open scoped BigOperators

namespace Cert.Gcn

open Idealize.ShloMosaic Idealize.ShloMosaic.ValueIdx Cert.ReferenceIdeal Cert.ReferenceIdeal.Gen

/-- The dense half of the first layer (50 input features): (A·W + b) + X·W'. -/
def dense50 {φ : FTy} (agg x : FVec Ideal S100000x50 .f32) (wt wrt : FVec Ideal S50x128 φ) (b : FVec Ideal S128 .f32) :
    FVec Ideal S100000x128 .f32 :=
  addf (addf (Host.dotGeneral dot_S100000x50_S50x128_S100000x128_1_0_0_1_n_n none agg wt)
      (broadcastInDim S100000x128 ![0, 1] bcast_S1x128_S100000x128_0_1 (broadcastInDim S1x128 ![1] bcast_S128_S1x128_1 b)))
    (Host.dotGeneral dot_S100000x50_S50x128_S100000x128_1_0_0_1_n_n none x wrt)

/-- The dense half of a later layer (128 input features): (A·W + b) + X·W'. -/
def dense128 {φ : FTy} (agg x : FVec Ideal S100000x128 .f32) (wt wrt : FVec Ideal S128x128 φ) (b : FVec Ideal S128 .f32) :
    FVec Ideal S100000x128 .f32 :=
  addf (addf (Host.dotGeneral dot_S100000x128_S128x128_S100000x128_1_0_0_1_n_n none agg wt)
      (broadcastInDim S100000x128 ![0, 1] bcast_S1x128_S100000x128_0_1 (broadcastInDim S1x128 ![1] bcast_S128_S1x128_1 b)))
    (Host.dotGeneral dot_S100000x128_S128x128_S100000x128_1_0_0_1_n_n none x wrt)

/-- The rectifier: max(h, 0) entry by entry. -/
def relu (h : FVec Ideal S100000x128 .f32) : FVec Ideal S100000x128 .f32 :=
  maximumf h (broadcastInDim S100000x128 ![] bcast_S_S100000x128 (constant S_ .f32 0x00000000#32))

/-- The read-out layer: P·W + b. -/
def readout {φ : FTy} (p : FVec Ideal S512x128 .f32) (wt : FVec Ideal S128x4 φ) (b : FVec Ideal S4 .f32) : FVec Ideal S512x4 .f32 :=
  addf (Host.dotGeneral dot_S512x128_S128x4_S512x4_1_0_0_1_n_n none p wt)
    (broadcastInDim S512x4 ![0, 1] bcast_S1x4_S512x4_0_1 (broadcastInDim S1x4 ![1] bcast_S4_S1x4_1 b))

theorem dense50_apply {φ : FTy} (agg x : FVec Ideal S100000x50 .f32) (wt wrt : FVec Ideal S50x128 φ) (b : FVec Ideal S128 .f32)
    (r : Fin 100000) (j : Fin 128) :
    dense50 agg x wt wrt b (ix2 r j)
      = ((∑ q : Fin 50, agg (ix2 r q) * wt (ix2 q j)) + b (ix1 j)) + ∑ q : Fin 50, x (ix2 r q) * wrt (ix2 q j) := by
  have e : dot_S100000x50_S50x128_S100000x128_1_0_0_1_n_n = DotDims.plain 100000 50 128 := rfl
  unfold dense50
  rw [addf_apply, e, LibRowOps.host_affine_apply _ rfl, StackMember.dotGeneral_plain_apply]

theorem dense128_apply {φ : FTy} (agg x : FVec Ideal S100000x128 .f32) (wt wrt : FVec Ideal S128x128 φ) (b : FVec Ideal S128 .f32)
    (r : Fin 100000) (j : Fin 128) :
    dense128 agg x wt wrt b (ix2 r j)
      = ((∑ q : Fin 128, agg (ix2 r q) * wt (ix2 q j)) + b (ix1 j)) + ∑ q : Fin 128, x (ix2 r q) * wrt (ix2 q j) := by
  have e : dot_S100000x128_S128x128_S100000x128_1_0_0_1_n_n = DotDims.plain 100000 128 128 := rfl
  unfold dense128
  rw [addf_apply, e, LibRowOps.host_affine_apply _ rfl, StackMember.dotGeneral_plain_apply]

theorem relu_apply (h : FVec Ideal S100000x128 .f32) (i : S100000x128.Idx) :
    relu h i = max (h i) (Ideal.ofBits .f32 0x00000000#32) := rfl

theorem readout_apply {φ : FTy} (p : FVec Ideal S512x128 .f32) (wt : FVec Ideal S128x4 φ) (b : FVec Ideal S4 .f32)
    (r : Fin 512) (j : Fin 4) :
    readout p wt b (ix2 r j) = (∑ q : Fin 128, p (ix2 r q) * wt (ix2 q j)) + b (ix1 j) := by
  have e : dot_S512x128_S128x4_S512x4_1_0_0_1_n_n = DotDims.plain 512 128 4 := rfl
  unfold readout
  rw [e, LibRowOps.host_affine_apply _ rfl]

end Cert.Gcn

end
-- ==== Proof.Network.lean ====
/-
  The whole network as one function of its inputs, spelt with the host's operations.

  An edge list has a row of source nodes and a row of target nodes. A layer sums, into each target node, the feature rows
  of its edges' source nodes (a gather of rows followed by a scatter-add from zero; a negative source index is first
  moved up by the node count), and applies the dense half to those sums and to the nodes' own features; the first two
  layers end in the rectifier. The mean pool sums the last layer's rows per graph and divides by the number of nodes of
  the graph, at least one. The read-out is an affine map of the pooled rows.
-/
import proofs.«134977_j7816840479101_1_alg».proof.Proof.Layers

noncomputable section

namespace Cert.Gcn

open Idealize.ShloMosaic Cert.ReferenceIdeal Cert.ReferenceIdeal.Gen

/-- The source node of every edge: row 0 of the edge list. -/
def edgeSrc (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The target node of every edge: row 1 of the edge list. -/
def edgeDst (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- Row indices for a gather: a negative index is moved up by the number of nodes; one index per edge, as a column. -/
def wrapIdx (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Neighbour sums of 50-feature rows: for each target node the sum of its edges' source rows. -/
def agg50 (x : FVec Ideal S100000x50 .f32) (ei : (⟨S2x1600000, .i32⟩ : BufTy).Contents (Elt Ideal)) : FVec Ideal S100000x50 .f32 :=
  Host.scatterAdd scatter_S100000x50_S1600000x1_S1600000x50_1_0_0_1
    (broadcastInDim S100000x50 ![] bcast_S_S100000x50 (constant S_ .f32 0x00000000#32))
    (broadcastInDim S1600000x1 ![0] bcast_S1600000_S1600000x1_0 (edgeDst ei))
    (Host.gather gather_S100000x50_S1600000x1_S1600000x50_1_0_n_n_0_1_150 x (wrapIdx (edgeSrc ei)))

/-- Neighbour sums of 128-feature rows. -/
def agg128 (h : FVec Ideal S100000x128 .f32) (ei : (⟨S2x1600000, .i32⟩ : BufTy).Contents (Elt Ideal)) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (edgeDst ei))
    (Host.gather gather_S100000x128_S1600000x1_S1600000x128_1_0_n_n_0_1_1128 h (wrapIdx (edgeSrc ei)))

/-- The mean pool: per graph, the sum of its nodes' rows over the number of its nodes (at least one). -/
def pool (h : FVec Ideal S100000x128 .f32) (batch : (⟨S100000, .i32⟩ : BufTy).Contents (Elt Ideal)) : FVec Ideal S512x128 .f32 :=
  Host.divf
    (Host.scatterAdd scatter_S512x128_S100000x1_S100000x128_1_0_0_1
      (broadcastInDim S512x128 ![] bcast_S_S512x128 (constant S_ .f32 0x00000000#32))
      (broadcastInDim S100000x1 ![0] bcast_S100000_S100000x1_0 batch) h)
    (broadcastInDim S512x128 ![0, 1] bcast_S512x1_S512x128_0_1 (broadcastInDim S512x1 ![0] bcast_S512_S512x1_0
      (maximumf
        (Host.scatterAdd scatter_S512_S100000x1_S100000_n_0_0_1
          (broadcastInDim S512 ![] bcast_S_S512 (constant S_ .f32 0x00000000#32))
          (broadcastInDim S100000x1 ![0] bcast_S100000_S100000x1_0 batch)
          (broadcastInDim S100000 ![] bcast_S_S100000 (constant S_ .f32 0x3F800000#32)))
        (broadcastInDim S512 ![] bcast_S_S512 (constant S_ .f32 0x3F800000#32)))))

/-- The first layer. -/
def layer1 (x : FVec Ideal S100000x50 .f32) (ei : (⟨S2x1600000, .i32⟩ : BufTy).Contents (Elt Ideal))
    (W : FVec Ideal S128x50 .f32) (b : FVec Ideal S128 .f32) (Wr : FVec Ideal S128x50 .f32) : FVec Ideal S100000x128 .f32 :=
  relu (dense50 (agg50 x ei) x (transpose S50x128 [1, 0] W transposes_S128x50_S50x128_1_0)
    (transpose S50x128 [1, 0] Wr transposes_S128x50_S50x128_1_0) b)

/-- A later layer before its rectifier, if it has one. -/
def layerLin (h : FVec Ideal S100000x128 .f32) (ei : (⟨S2x1600000, .i32⟩ : BufTy).Contents (Elt Ideal))
    (W : FVec Ideal S128x128 .f32) (b : FVec Ideal S128 .f32) (Wr : FVec Ideal S128x128 .f32) : FVec Ideal S100000x128 .f32 :=
  dense128 (agg128 h ei) h (transpose S128x128 [1, 0] W transposes_S128x128_S128x128_1_0)
    (transpose S128x128 [1, 0] Wr transposes_S128x128_S128x128_1_0) b

/-- The network: three layers, the mean pool, the read-out. -/
def network (x : FVec Ideal S100000x50 .f32) (ei : (⟨S2x1600000, .i32⟩ : BufTy).Contents (Elt Ideal))
    (batch : (⟨S100000, .i32⟩ : BufTy).Contents (Elt Ideal))
    (W1 : FVec Ideal S128x50 .f32) (b1 : FVec Ideal S128 .f32) (Wr1 : FVec Ideal S128x50 .f32)
    (W2 : FVec Ideal S128x128 .f32) (b2 : FVec Ideal S128 .f32) (Wr2 : FVec Ideal S128x128 .f32)
    (W3 : FVec Ideal S128x128 .f32) (b3 : FVec Ideal S128 .f32) (Wr3 : FVec Ideal S128x128 .f32)
    (Wl : FVec Ideal S4x128 .f32) (bl : FVec Ideal S4 .f32) : FVec Ideal S512x4 .f32 :=
  readout (pool (layerLin (relu (layerLin (layer1 x ei W1 b1 Wr1) ei W2 b2 Wr2)) ei W3 b3 Wr3) batch)
    (transpose S128x4 [1, 0] Wl transposes_S4x128_S128x4_1_0) bl

end Cert.Gcn

end
-- ==== Proof.Formats.lean ====
/-
  A change of float format is the identity at the ideal values: the dense half of a layer and the read-out applied to
  weights rounded to a narrower format are the same functions applied to the weights themselves.
-/
import proofs.«134977_j7816840479101_1_alg».proof.Proof.Layers

noncomputable section

namespace Cert.Gcn

open Idealize.ShloMosaic Cert.ReferenceIdeal Cert.ReferenceIdeal.Gen

theorem dense50_truncf (agg x : FVec Ideal S100000x50 .f32) (wt wrt : FVec Ideal S50x128 .f32) (b : FVec Ideal S128 .f32)
    (h : FTy.bf16.bits < FTy.f32.bits) :
    dense50 (φ := .bf16) agg x (truncf .bf16 wt h) (truncf .bf16 wrt h) b = dense50 (φ := .f32) agg x wt wrt b := rfl

theorem dense128_truncf (agg x : FVec Ideal S100000x128 .f32) (wt wrt : FVec Ideal S128x128 .f32) (b : FVec Ideal S128 .f32)
    (h : FTy.bf16.bits < FTy.f32.bits) :
    dense128 (φ := .bf16) agg x (truncf .bf16 wt h) (truncf .bf16 wrt h) b = dense128 (φ := .f32) agg x wt wrt b := rfl

theorem readout_truncf (p : FVec Ideal S512x128 .f32) (wt : FVec Ideal S128x4 .f32) (b : FVec Ideal S4 .f32)
    (h : FTy.bf16.bits < FTy.f32.bits) :
    readout (φ := .bf16) p (truncf .bf16 wt h) b = readout (φ := .f32) p wt b := rfl

end Cert.Gcn

end
-- ==== Proof.Payloads.lean ====
/-
  What each kernel body stores, read at one entry, at the ideal values.

  A graph-convolution body loads a block of neighbour sums A and a block of node features X (5000 rows each), the two
  weight matrices W, W' (already turned so that rows are input features) and the bias b, and stores
  (A·W + X·W') + b, the first two with the rectifier on top. The read-out body stores P·W + b. A change of float
  format is the identity at the ideal values and a matrix product into the zero accumulator is the plain product, so
  entry (p, j) of the stored block is (∑_q A_{p,q} W_{q,j} + ∑_q X_{p,q} W'_{q,j}) + b_j, under max(·, 0) where the
  body has the rectifier.
-/
import proofs.«134977_j7816840479101_1_alg».proof.Proof.Gen.KernelIdeal.Skeleton
import proofs.«134977_j7816840479101_1_alg».proof.Proof.LibRowOps
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.Gcn

open Idealize.ShloMosaic Idealize.ShloMosaic.ValueIdx Cert.KernelIdeal Cert.KernelIdeal.Gen

/-- The first layer's stored block at (p, j). -/
theorem pay0_apply (a x : Vec Ideal S5000x50 .f32) (w wr : Vec Ideal S50x128 .bf16) (b : Vec Ideal S128 .f32)
    (p : Fin 5000) (j : Fin 128) :
    k0_pay1 (F := Ideal) a x w wr b (ix2 p j)
      = max (((∑ q : Fin 50, a (ix2 p q) * w (ix2 q j)) + ∑ q : Fin 50, x (ix2 p q) * wr (ix2 q j)) + b (ix1 j))
          (Ideal.ofBits .f32 0x00000000#32) := by
  have e : dot_S5000x50_S50x128_S5000x128_1_0_0_1_n_n = DotDims.plain 5000 50 128 := rfl
  unfold k0_pay1
  rw [maximumf_apply, addf_apply, addf_apply, e, LibMatmulPlain.matmul_plain_zero_apply,
    LibMatmulPlain.matmul_plain_zero_apply, broadcastTo_1b_ab_apply, shapeCast_a_1a_apply, shapeCast_self, shapeCast_self,
    shapeCast_self]
  rfl

/-- The second layer's stored block at (p, j). -/
theorem pay1_apply (a x : Vec Ideal S5000x128 .f32) (w wr : Vec Ideal S128x128 .bf16) (b : Vec Ideal S128 .f32)
    (p : Fin 5000) (j : Fin 128) :
    k1_pay1 (F := Ideal) a x w wr b (ix2 p j)
      = max (((∑ q : Fin 128, a (ix2 p q) * w (ix2 q j)) + ∑ q : Fin 128, x (ix2 p q) * wr (ix2 q j)) + b (ix1 j))
          (Ideal.ofBits .f32 0x00000000#32) := by
  have e : dot_S5000x128_S128x128_S5000x128_1_0_0_1_n_n = DotDims.plain 5000 128 128 := rfl
  unfold k1_pay1
  rw [maximumf_apply, addf_apply, addf_apply, e, LibMatmulPlain.matmul_plain_zero_apply,
    LibMatmulPlain.matmul_plain_zero_apply, broadcastTo_1b_ab_apply, shapeCast_a_1a_apply, shapeCast_self, shapeCast_self,
    shapeCast_self, shapeCast_self]
  rfl

/-- The third layer's stored block at (p, j): no rectifier. -/
theorem pay2_apply (a x : Vec Ideal S5000x128 .f32) (w wr : Vec Ideal S128x128 .bf16) (b : Vec Ideal S128 .f32)
    (p : Fin 5000) (j : Fin 128) :
    k2_pay1 (F := Ideal) a x w wr b (ix2 p j)
      = ((∑ q : Fin 128, a (ix2 p q) * w (ix2 q j)) + ∑ q : Fin 128, x (ix2 p q) * wr (ix2 q j)) + b (ix1 j) := by
  have e : dot_S5000x128_S128x128_S5000x128_1_0_0_1_n_n = DotDims.plain 5000 128 128 := rfl
  unfold k2_pay1
  rw [addf_apply, addf_apply, e, LibMatmulPlain.matmul_plain_zero_apply,
    LibMatmulPlain.matmul_plain_zero_apply, broadcastTo_1b_ab_apply, shapeCast_a_1a_apply, shapeCast_self, shapeCast_self,
    shapeCast_self, shapeCast_self]
  rfl

/-- The read-out's stored block at (p, j). -/
theorem pay3_apply (x : Vec Ideal S512x128 .f32) (w : Vec Ideal S128x4 .bf16) (b : Vec Ideal S4 .f32)
    (p : Fin 512) (j : Fin 4) :
    k3_pay1 (F := Ideal) x w b (ix2 p j) = (∑ q : Fin 128, x (ix2 p q) * w (ix2 q j)) + b (ix1 j) := by
  have e : dot_S512x128_S128x4_S512x4_1_0_0_1_n_n = DotDims.plain 512 128 4 := rfl
  unfold k3_pay1
  rw [e, LibRowOps.kernel_affine_apply _ rfl, shapeCast_self, shapeCast_self]
  rfl

end Cert.Gcn

end
-- ==== Proof.Region0.lean ====
/-
  The first graph-convolution region as one function of the arrays it finds.

  The region runs its body at 20 grid points. At point t the body sees rows 5000·t … 5000·t + 4999 of the neighbour
  sums A and of the node features X (50 features each), the whole of the two 50 × 128 weight matrices and of the bias,
  and writes rows 5000·t … 5000·t + 4999 of the result. Entry (p, j) of what it stores is
  max((∑_q A_{r,q} W_{q,j} + ∑_q X_{r,q} W'_{q,j}) + b_j, 0) with r = 5000·t + p, which is entry (r, j) of
  max((A·W + b) + X·W', 0) because addition of extended reals is commutative and associative. The 20 blocks tile the
  result array, so after the region the array is that function of the arrays the region was entered with.
-/
import proofs.«134977_j7816840479101_1_alg».proof.Proof.Gen.KernelIdeal.Frame
import proofs.«134977_j7816840479101_1_alg».proof.Proof.Layers
import proofs.«134977_j7816840479101_1_alg».proof.Proof.Payloads
import Idealize.ShloMosaic.Lib.Pipeline.Value

set_option maxRecDepth 16384

noncomputable section

open scoped BigOperators

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index of every window at a grid point: the two row-blocked inputs and the output move with the point,
    the weights and the bias stay. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour sums' block at point t is rows 5000·t … of the array. -/
theorem blk0 (c : Dev nD) (t : Fin cfg0.N) (p : Fin 5000) (q : Fin 50) (r : Fin 100000) (hr : r.val = 5000 * t.val + p.val) :
    (iblk0 V c 0 t : Vec Ideal S5000x50 .f32) (ix2 p q) = (V c main_v13 : S100000x50.Idx → Elt Ideal .f32) (ix2 r q) := by
  obtain ⟨e0, e1, -⟩ := idx t
  unfold iblk0
  rw [View.read_apply]
  show V c main_v13 _ = V c main_v13 _
  congr 1
  funext a
  apply Fin.ext
  match a with
  | ⟨0, _⟩ => show win0_0.index t 0 * 5000 + 1 * p.val = r.val; rw [e0, hr]; omega
  | ⟨1, _⟩ => show win0_0.index t 1 * 50 + 1 * q.val = q.val; rw [e1]; omega

/-- The node features' block at point t is rows 5000·t … of the array. -/
theorem blk1 (c : Dev nD) (t : Fin cfg0.N) (p : Fin 5000) (q : Fin 50) (r : Fin 100000) (hr : r.val = 5000 * t.val + p.val) :
    (iblk0 V c 1 t : Vec Ideal S5000x50 .f32) (ix2 p q) = (V c main_arg0 : S100000x50.Idx → Elt Ideal .f32) (ix2 r q) := by
  obtain ⟨-, -, e0, e1, -⟩ := idx t
  unfold iblk0
  rw [View.read_apply]
  show V c main_arg0 _ = V c main_arg0 _
  congr 1
  funext a
  apply Fin.ext
  match a with
  | ⟨0, _⟩ => show win0_1.index t 0 * 5000 + 1 * p.val = r.val; rw [e0, hr]; omega
  | ⟨1, _⟩ => show win0_1.index t 1 * 50 + 1 * q.val = q.val; rw [e1]; omega

/-- The first weight matrix's block is the whole matrix. -/
theorem blk2 (c : Dev nD) (t : Fin cfg0.N) (q : Fin 50) (j : Fin 128) :
    (iblk0 V c 2 t : Vec Ideal S50x128 .bf16) (ix2 q j) = (V c main_v15 : S50x128.Idx → Elt Ideal .bf16) (ix2 q j) := by
  obtain ⟨-, -, -, -, e0, e1, -⟩ := idx t
  unfold iblk0
  rw [View.read_apply]
  show V c main_v15 _ = V c main_v15 _
  congr 1
  funext a
  apply Fin.ext
  match a with
  | ⟨0, _⟩ => show win0_2.index t 0 * 50 + 1 * q.val = q.val; rw [e0]; omega
  | ⟨1, _⟩ => show win0_2.index t 1 * 128 + 1 * j.val = j.val; rw [e1]; omega

/-- The bias's block is the whole vector. -/
theorem blk3 (c : Dev nD) (t : Fin cfg0.N) (j : Fin 128) :
    (iblk0 V c 3 t : Vec Ideal S128 .f32) (ix1 j) = (V c main_arg4 : S128.Idx → Elt Ideal .f32) (ix1 j) := by
  obtain ⟨-, -, -, -, -, -, e0, -⟩ := idx t
  unfold iblk0
  rw [View.read_apply]
  show V c main_arg4 _ = V c main_arg4 _
  congr 1
  funext a
  apply Fin.ext
  match a with
  | ⟨0, _⟩ => show win0_3.index t 0 * 128 + 1 * j.val = j.val; rw [e0]; omega

/-- The second weight matrix's block is the whole matrix. -/
theorem blk4 (c : Dev nD) (t : Fin cfg0.N) (q : Fin 50) (j : Fin 128) :
    (iblk0 V c 4 t : Vec Ideal S50x128 .bf16) (ix2 q j) = (V c main_v17 : S50x128.Idx → Elt Ideal .bf16) (ix2 q j) := by
  obtain ⟨-, -, -, -, -, -, -, e0, e1, -⟩ := idx t
  unfold iblk0
  rw [View.read_apply]
  show V c main_v17 _ = V c main_v17 _
  congr 1
  funext a
  apply Fin.ext
  match a with
  | ⟨0, _⟩ => show win0_4.index t 0 * 50 + 1 * q.val = q.val; rw [e0]; omega
  | ⟨1, _⟩ => show win0_4.index t 1 * 128 + 1 * j.val = j.val; rw [e1]; omega

/-- Entry (p, j) of the output's block at point t is entry (5000·t + p, j) of the array. -/
theorem emb5 (t : Fin cfg0.N) (p : Fin 5000) (j : Fin 128) (r : Fin 100000) (hr : r.val = 5000 * t.val + p.val) :
    ((cfg0.win 5).blk t).view.emb (ix2 p j) = (ix2 r j : S100000x128.Idx) := by
  obtain ⟨-, -, -, -, -, -, -, -, -, e0, e1⟩ := idx t
  funext a
  apply Fin.ext
  match a with
  | ⟨0, _⟩ => show win0_5.index t 0 * 5000 + 1 * p.val = r.val; rw [e0, hr]; omega
  | ⟨1, _⟩ => show win0_5.index t 1 * 128 + 1 * j.val = j.val; rw [e1]; omega

/-- What point t writes back is block t of the layer's function of the arrays the region finds. -/
theorem flushed_eq (c : Dev nD) (t : Fin cfg0.N) :
    (dat0 V c).flushed 5 t = ((cfg0.win 5).blk t).view.read (Elt Ideal)
      (Gcn.relu (Gcn.dense50 (φ := .bf16) (V c main_v13) (V c main_arg0) (V c main_v15) (V c main_v17) (V c main_arg4))) := by
  show (cfg0.win 5).cut (grid0.coords t) ((dat0 V c).after 5 t) = _
  rw [after0_5]
  unfold out0_5
  rw [View.canon_unit_zero hz2]
  simp only [View.ld_unit_zero (S := S5000x50) hz2, View.ld_unit_zero (S := S50x128) hz2, View.ld_unit_zero (S := S128) hz1]
  funext y
  obtain ⟨p, j, rfl⟩ : ∃ (p : Fin 5000) (j : Fin 128), y = ix2 p j := ⟨y 0, y 1, eq_ix2 y⟩
  have hr : 5000 * t.val + p.val < 100000 := by
    have h1 := t.isLt; have h20 : cfg0.N = 20 := N_0; have h2 := p.isLt; omega
  rw [View.read_apply, emb5 t p j ⟨_, hr⟩ rfl, Gcn.relu_apply, Gcn.dense50_apply]
  refine (Gcn.pay0_apply (iblk0 V c 0 t) (iblk0 V c 1 t) (iblk0 V c 2 t) (iblk0 V c 4 t) (iblk0 V c 3 t) p j).trans ?_
  refine congrArg (max · _) ?_
  rw [add_right_comm]
  refine congrArg₂ (· + ·) (congrArg₂ (· + ·) ?_ (blk3 V c t j)) ?_
  · exact Finset.sum_congr rfl fun q _ => by rw [blk0 V c t p q ⟨_, hr⟩ rfl, blk2 V c t q j]
  · exact Finset.sum_congr rfl fun q _ => by rw [blk1 V c t p q ⟨_, hr⟩ rfl, blk4 V c t q j]

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- Every entry of the result array lies in the block of the point its row belongs to. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have h20 : cfg0.N = 20 := N_0
  refine ⟨⟨(i 0).val / 5000, by omega⟩, flush0_5 _, ?_⟩
  rw [mem_blk]
  obtain ⟨-, -, -, -, -, -, -, -, -, e0, e1⟩ := idx ⟨(i 0).val / 5000, by omega⟩
  intro a
  match a with
  | ⟨0, _⟩ => show win0_5.index _ (0 : Fin 2) * 5000 ≤ (i 0).val ∧ (i 0).val < win0_5.index _ (0 : Fin 2) * 5000 + 5000; rw [e0]; show (i 0).val / 5000 * 5000 ≤ _ ∧ _ < (i 0).val / 5000 * 5000 + 5000; omega
  | ⟨1, _⟩ => show win0_5.index _ (1 : Fin 2) * 128 ≤ (i 1).val ∧ (i 1).val < win0_5.index _ (1 : Fin 2) * 128 + 128; rw [e1]; omega

/-- After the region its result array is max((A·W + b) + X·W', 0) of the arrays the region was entered with. -/
theorem final (c : Dev nD) :
    (dat0 V c).arrAt 5 cfg0.N
      = Gcn.relu (Gcn.dense50 (φ := .bf16) (V c main_v13) (V c main_arg0) (V c main_v15) (V c main_v17) (V c main_arg4)) :=
  (dat0 V c).arrAt_eq_of_cover 5 _ (fun t _ => flushed_eq V c t) cover

end Cert.Gcn.Region0

end
-- ==== Proof.Region1.lean ====
/-
  The second graph-convolution region as one function of the arrays it finds.

  The region runs its body at 20 grid points. At point t the body sees rows 5000·t … 5000·t + 4999 of the neighbour
  sums A and of the node features X, the whole of the two weight matrices and of the bias, and writes rows
  5000·t … 5000·t + 4999 of the result. Entry (p, j) of what it stores is
  max((∑_q A_{r,q} W_{q,j} + ∑_q X_{r,q} W'_{q,j}) + b_j, 0) with r = 5000·t + p, which is entry (r, j) of
  max((A·W + b) + X·W', 0) because addition of extended reals is commutative and associative. The 20 blocks tile the
  result array, so after the region the array is that function of the arrays the region was entered with.
-/
import proofs.«134977_j7816840479101_1_alg».proof.Proof.Gen.KernelIdeal.Frame
import proofs.«134977_j7816840479101_1_alg».proof.Proof.Layers
import proofs.«134977_j7816840479101_1_alg».proof.Proof.Payloads
import Idealize.ShloMosaic.Lib.Pipeline.Value

set_option maxRecDepth 16384

noncomputable section

open scoped BigOperators

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index of every window at a grid point: the two row-blocked inputs and the output move with the point,
    the weights and the bias stay. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour sums' block at point t is rows 5000·t … of the array. -/
theorem blk0 (c : Dev nD) (t : Fin cfg1.N) (p : Fin 5000) (q : Fin 128) (r : Fin 100000) (hr : r.val = 5000 * t.val + p.val) :
    (iblk1 V c 0 t : Vec Ideal S5000x128 .f32) (ix2 p q) = (V c main_v28 : S100000x128.Idx → Elt Ideal .f32) (ix2 r q) := by
  obtain ⟨e0, e1, -⟩ := idx t
  unfold iblk1
  rw [View.read_apply]
  show V c main_v28 _ = V c main_v28 _
  congr 1
  funext a
  apply Fin.ext
  match a with
  | ⟨0, _⟩ => show win1_0.index t 0 * 5000 + 1 * p.val = r.val; rw [e0, hr]; omega
  | ⟨1, _⟩ => show win1_0.index t 1 * 128 + 1 * q.val = q.val; rw [e1]; omega

/-- The node features' block at point t is rows 5000·t … of the array. -/
theorem blk1 (c : Dev nD) (t : Fin cfg1.N) (p : Fin 5000) (q : Fin 128) (r : Fin 100000) (hr : r.val = 5000 * t.val + p.val) :
    (iblk1 V c 1 t : Vec Ideal S5000x128 .f32) (ix2 p q) = (V c main_v18 : S100000x128.Idx → Elt Ideal .f32) (ix2 r q) := by
  obtain ⟨-, -, e0, e1, -⟩ := idx t
  unfold iblk1
  rw [View.read_apply]
  show V c main_v18 _ = V c main_v18 _
  congr 1
  funext a
  apply Fin.ext
  match a with
  | ⟨0, _⟩ => show win1_1.index t 0 * 5000 + 1 * p.val = r.val; rw [e0, hr]; omega
  | ⟨1, _⟩ => show win1_1.index t 1 * 128 + 1 * q.val = q.val; rw [e1]; omega

/-- The first weight matrix's block is the whole matrix. -/
theorem blk2 (c : Dev nD) (t : Fin cfg1.N) (q j : Fin 128) :
    (iblk1 V c 2 t : Vec Ideal S128x128 .bf16) (ix2 q j) = (V c main_v30 : S128x128.Idx → Elt Ideal .bf16) (ix2 q j) := by
  obtain ⟨-, -, -, -, e0, e1, -⟩ := idx t
  unfold iblk1
  rw [View.read_apply]
  show V c main_v30 _ = V c main_v30 _
  congr 1
  funext a
  apply Fin.ext
  match a with
  | ⟨0, _⟩ => show win1_2.index t 0 * 128 + 1 * q.val = q.val; rw [e0]; omega
  | ⟨1, _⟩ => show win1_2.index t 1 * 128 + 1 * j.val = j.val; rw [e1]; omega

/-- The bias's block is the whole vector. -/
theorem blk3 (c : Dev nD) (t : Fin cfg1.N) (j : Fin 128) :
    (iblk1 V c 3 t : Vec Ideal S128 .f32) (ix1 j) = (V c main_arg7 : S128.Idx → Elt Ideal .f32) (ix1 j) := by
  obtain ⟨-, -, -, -, -, -, e0, -⟩ := idx t
  unfold iblk1
  rw [View.read_apply]
  show V c main_arg7 _ = V c main_arg7 _
  congr 1
  funext a
  apply Fin.ext
  match a with
  | ⟨0, _⟩ => show win1_3.index t 0 * 128 + 1 * j.val = j.val; rw [e0]; omega

/-- The second weight matrix's block is the whole matrix. -/
theorem blk4 (c : Dev nD) (t : Fin cfg1.N) (q j : Fin 128) :
    (iblk1 V c 4 t : Vec Ideal S128x128 .bf16) (ix2 q j) = (V c main_v32 : S128x128.Idx → Elt Ideal .bf16) (ix2 q j) := by
  obtain ⟨-, -, -, -, -, -, -, e0, e1, -⟩ := idx t
  unfold iblk1
  rw [View.read_apply]
  show V c main_v32 _ = V c main_v32 _
  congr 1
  funext a
  apply Fin.ext
  match a with
  | ⟨0, _⟩ => show win1_4.index t 0 * 128 + 1 * q.val = q.val; rw [e0]; omega
  | ⟨1, _⟩ => show win1_4.index t 1 * 128 + 1 * j.val = j.val; rw [e1]; omega

/-- Entry (p, j) of the output's block at point t is entry (5000·t + p, j) of the array. -/
theorem emb5 (t : Fin cfg1.N) (p : Fin 5000) (j : Fin 128) (r : Fin 100000) (hr : r.val = 5000 * t.val + p.val) :
    ((cfg1.win 5).blk t).view.emb (ix2 p j) = (ix2 r j : S100000x128.Idx) := by
  obtain ⟨-, -, -, -, -, -, -, -, -, e0, e1⟩ := idx t
  funext a
  apply Fin.ext
  match a with
  | ⟨0, _⟩ => show win1_5.index t 0 * 5000 + 1 * p.val = r.val; rw [e0, hr]; omega
  | ⟨1, _⟩ => show win1_5.index t 1 * 128 + 1 * j.val = j.val; rw [e1]; omega

/-- What point t writes back is block t of the layer's function of the arrays the region finds. -/
theorem flushed_eq (c : Dev nD) (t : Fin cfg1.N) :
    (dat1 V c).flushed 5 t = ((cfg1.win 5).blk t).view.read (Elt Ideal)
      (Gcn.relu (Gcn.dense128 (φ := .bf16) (V c main_v28) (V c main_v18) (V c main_v30) (V c main_v32) (V c main_arg7))) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext y
  obtain ⟨p, j, rfl⟩ : ∃ (p : Fin 5000) (j : Fin 128), y = ix2 p j := ⟨y 0, y 1, eq_ix2 y⟩
  have hr : 5000 * t.val + p.val < 100000 := by
    have h1 := t.isLt; have h20 : cfg1.N = 20 := N_1; have h2 := p.isLt; omega
  rw [View.read_apply, emb5 t p j ⟨_, hr⟩ rfl, Gcn.relu_apply, Gcn.dense128_apply]
  refine (Gcn.pay1_apply (iblk1 V c 0 t) (iblk1 V c 1 t) (iblk1 V c 2 t) (iblk1 V c 4 t) (iblk1 V c 3 t) p j).trans ?_
  refine congrArg (max · _) ?_
  rw [add_right_comm]
  refine congrArg₂ (· + ·) (congrArg₂ (· + ·) ?_ (blk3 V c t j)) ?_
  · exact Finset.sum_congr rfl fun q _ => by rw [blk0 V c t p q ⟨_, hr⟩ rfl, blk2 V c t q j]
  · exact Finset.sum_congr rfl fun q _ => by rw [blk1 V c t p q ⟨_, hr⟩ rfl, blk4 V c t q j]

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- Every entry of the result array lies in the block of the point its row belongs to. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have h20 : cfg1.N = 20 := N_1
  refine ⟨⟨(i 0).val / 5000, by omega⟩, flush1_5 _, ?_⟩
  rw [mem_blk]
  obtain ⟨-, -, -, -, -, -, -, -, -, e0, e1⟩ := idx ⟨(i 0).val / 5000, by omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ _ ∧ _ < (i 0).val / 5000 * 5000 + 5000; omega
  | ⟨1, _⟩ => show win1_5.index _ (1 : Fin 2) * 128 ≤ (i 1).val ∧ (i 1).val < win1_5.index _ (1 : Fin 2) * 128 + 128; rw [e1]; omega

/-- After the region its result array is max((A·W + b) + X·W', 0) of the arrays the region was entered with. -/
theorem final (c : Dev nD) :
    (dat1 V c).arrAt 5 cfg1.N
      = Gcn.relu (Gcn.dense128 (φ := .bf16) (V c main_v28) (V c main_v18) (V c main_v30) (V c main_v32) (V c main_arg7)) :=
  (dat1 V c).arrAt_eq_of_cover 5 _ (fun t _ => flushed_eq V c t) cover

end Cert.Gcn.Region1

end
-- ==== Proof.Region2.lean ====
/-
  The third graph-convolution region as one function of the arrays it finds.

  As in the layer before it, the body at grid point t sees rows 5000·t … 5000·t + 4999 of the neighbour sums A and of the
  node features X and the whole of the weights and the bias, and writes the same rows of the result; this layer has no
  rectifier. Entry (p, j) of what it stores is (∑_q A_{r,q} W_{q,j} + ∑_q X_{r,q} W'_{q,j}) + b_j with r = 5000·t + p,
  which is entry (r, j) of (A·W + b) + X·W'. The 20 blocks tile the result array.
-/
import proofs.«134977_j7816840479101_1_alg».proof.Proof.Gen.KernelIdeal.Frame
import proofs.«134977_j7816840479101_1_alg».proof.Proof.Layers
import proofs.«134977_j7816840479101_1_alg».proof.Proof.Payloads
import Idealize.ShloMosaic.Lib.Pipeline.Value

set_option maxRecDepth 16384

noncomputable section

open scoped BigOperators

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index of every window at a grid point: the two row-blocked inputs and the output move with the point,
    the weights and the bias stay. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour sums' block at point t is rows 5000·t … of the array. -/
theorem blk0 (c : Dev nD) (t : Fin cfg2.N) (p : Fin 5000) (q : Fin 128) (r : Fin 100000) (hr : r.val = 5000 * t.val + p.val) :
    (iblk2 V c 0 t : Vec Ideal S5000x128 .f32) (ix2 p q) = (V c main_v43 : S100000x128.Idx → Elt Ideal .f32) (ix2 r q) := by
  obtain ⟨e0, e1, -⟩ := idx t
  unfold iblk2
  rw [View.read_apply]
  show V c main_v43 _ = V c main_v43 _
  congr 1
  funext a
  apply Fin.ext
  match a with
  | ⟨0, _⟩ => show win2_0.index t 0 * 5000 + 1 * p.val = r.val; rw [e0, hr]; omega
  | ⟨1, _⟩ => show win2_0.index t 1 * 128 + 1 * q.val = q.val; rw [e1]; omega

/-- The node features' block at point t is rows 5000·t … of the array. -/
theorem blk1 (c : Dev nD) (t : Fin cfg2.N) (p : Fin 5000) (q : Fin 128) (r : Fin 100000) (hr : r.val = 5000 * t.val + p.val) :
    (iblk2 V c 1 t : Vec Ideal S5000x128 .f32) (ix2 p q) = (V c main_v33 : S100000x128.Idx → Elt Ideal .f32) (ix2 r q) := by
  obtain ⟨-, -, e0, e1, -⟩ := idx t
  unfold iblk2
  rw [View.read_apply]
  show V c main_v33 _ = V c main_v33 _
  congr 1
  funext a
  apply Fin.ext
  match a with
  | ⟨0, _⟩ => show win2_1.index t 0 * 5000 + 1 * p.val = r.val; rw [e0, hr]; omega
  | ⟨1, _⟩ => show win2_1.index t 1 * 128 + 1 * q.val = q.val; rw [e1]; omega

/-- The first weight matrix's block is the whole matrix. -/
theorem blk2 (c : Dev nD) (t : Fin cfg2.N) (q j : Fin 128) :
    (iblk2 V c 2 t : Vec Ideal S128x128 .bf16) (ix2 q j) = (V c main_v45 : S128x128.Idx → Elt Ideal .bf16) (ix2 q j) := by
  obtain ⟨-, -, -, -, e0, e1, -⟩ := idx t
  unfold iblk2
  rw [View.read_apply]
  show V c main_v45 _ = V c main_v45 _
  congr 1
  funext a
  apply Fin.ext
  match a with
  | ⟨0, _⟩ => show win2_2.index t 0 * 128 + 1 * q.val = q.val; rw [e0]; omega
  | ⟨1, _⟩ => show win2_2.index t 1 * 128 + 1 * j.val = j.val; rw [e1]; omega

/-- The bias's block is the whole vector. -/
theorem blk3 (c : Dev nD) (t : Fin cfg2.N) (j : Fin 128) :
    (iblk2 V c 3 t : Vec Ideal S128 .f32) (ix1 j) = (V c main_arg10 : S128.Idx → Elt Ideal .f32) (ix1 j) := by
  obtain ⟨-, -, -, -, -, -, e0, -⟩ := idx t
  unfold iblk2
  rw [View.read_apply]
  show V c main_arg10 _ = V c main_arg10 _
  congr 1
  funext a
  apply Fin.ext
  match a with
  | ⟨0, _⟩ => show win2_3.index t 0 * 128 + 1 * j.val = j.val; rw [e0]; omega

/-- The second weight matrix's block is the whole matrix. -/
theorem blk4 (c : Dev nD) (t : Fin cfg2.N) (q j : Fin 128) :
    (iblk2 V c 4 t : Vec Ideal S128x128 .bf16) (ix2 q j) = (V c main_v47 : S128x128.Idx → Elt Ideal .bf16) (ix2 q j) := by
  obtain ⟨-, -, -, -, -, -, -, e0, e1, -⟩ := idx t
  unfold iblk2
  rw [View.read_apply]
  show V c main_v47 _ = V c main_v47 _
  congr 1
  funext a
  apply Fin.ext
  match a with
  | ⟨0, _⟩ => show win2_4.index t 0 * 128 + 1 * q.val = q.val; rw [e0]; omega
  | ⟨1, _⟩ => show win2_4.index t 1 * 128 + 1 * j.val = j.val; rw [e1]; omega

/-- Entry (p, j) of the output's block at point t is entry (5000·t + p, j) of the array. -/
theorem emb5 (t : Fin cfg2.N) (p : Fin 5000) (j : Fin 128) (r : Fin 100000) (hr : r.val = 5000 * t.val + p.val) :
    ((cfg2.win 5).blk t).view.emb (ix2 p j) = (ix2 r j : S100000x128.Idx) := by
  obtain ⟨-, -, -, -, -, -, -, -, -, e0, e1⟩ := idx t
  funext a
  apply Fin.ext
  match a with
  | ⟨0, _⟩ => show win2_5.index t 0 * 5000 + 1 * p.val = r.val; rw [e0, hr]; omega
  | ⟨1, _⟩ => show win2_5.index t 1 * 128 + 1 * j.val = j.val; rw [e1]; omega

/-- What point t writes back is block t of the layer's function of the arrays the region finds. -/
theorem flushed_eq (c : Dev nD) (t : Fin cfg2.N) :
    (dat2 V c).flushed 5 t = ((cfg2.win 5).blk t).view.read (Elt Ideal)
      (Gcn.dense128 (φ := .bf16) (V c main_v43) (V c main_v33) (V c main_v45) (V c main_v47) (V c main_arg10)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  funext y
  obtain ⟨p, j, rfl⟩ : ∃ (p : Fin 5000) (j : Fin 128), y = ix2 p j := ⟨y 0, y 1, eq_ix2 y⟩
  have hr : 5000 * t.val + p.val < 100000 := by
    have h1 := t.isLt; have h20 : cfg2.N = 20 := N_2; have h2 := p.isLt; omega
  rw [View.read_apply, emb5 t p j ⟨_, hr⟩ rfl, Gcn.dense128_apply]
  refine (Gcn.pay2_apply (iblk2 V c 0 t) (iblk2 V c 1 t) (iblk2 V c 2 t) (iblk2 V c 4 t) (iblk2 V c 3 t) p j).trans ?_
  rw [add_right_comm]
  refine congrArg₂ (· + ·) (congrArg₂ (· + ·) ?_ (blk3 V c t j)) ?_
  · exact Finset.sum_congr rfl fun q _ => by rw [blk0 V c t p q ⟨_, hr⟩ rfl, blk2 V c t q j]
  · exact Finset.sum_congr rfl fun q _ => by rw [blk1 V c t p q ⟨_, hr⟩ rfl, blk4 V c t q j]

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v48).slice (win2_5.rect t)).set ↔ _
  rw [View.set_slice_whole, Rect.mem_set_unit]
  exact Iff.rfl

/-- Every entry of the result array lies in the block of the point its row belongs to. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have h20 : cfg2.N = 20 := N_2
  refine ⟨⟨(i 0).val / 5000, by omega⟩, flush2_5 _, ?_⟩
  rw [mem_blk]
  obtain ⟨-, -, -, -, -, -, -, -, -, e0, e1⟩ := idx ⟨(i 0).val / 5000, by omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ _ ∧ _ < (i 0).val / 5000 * 5000 + 5000; omega
  | ⟨1, _⟩ => show win2_5.index _ (1 : Fin 2) * 128 ≤ (i 1).val ∧ (i 1).val < win2_5.index _ (1 : Fin 2) * 128 + 128; rw [e1]; omega

/-- After the region its result array is (A·W + b) + X·W' of the arrays the region was entered with. -/
theorem final (c : Dev nD) :
    (dat2 V c).arrAt 5 cfg2.N
      = Gcn.dense128 (φ := .bf16) (V c main_v43) (V c main_v33) (V c main_v45) (V c main_v47) (V c main_arg10) :=
  (dat2 V c).arrAt_eq_of_cover 5 _ (fun t _ => flushed_eq V c t) cover

end Cert.Gcn.Region2

end
-- ==== Proof.Region3.lean ====
/-
  The read-out region as one function of the arrays it finds.

  The region has one grid point, whose blocks are the whole arrays: the 512 × 128 pooled rows P, the 128 × 4 weight
  matrix W and the bias b of length 4; it writes the whole 512 × 4 result. Entry (p, j) of what it stores is
  ∑_q P_{p,q} W_{q,j} + b_j, which is entry (p, j) of P·W + b.
-/
import proofs.«134977_j7816840479101_1_alg».proof.Proof.Gen.KernelIdeal.Frame
import proofs.«134977_j7816840479101_1_alg».proof.Proof.Layers
import proofs.«134977_j7816840479101_1_alg».proof.Proof.Payloads
import Idealize.ShloMosaic.Lib.Pipeline.Value

set_option maxRecDepth 16384

noncomputable section

open scoped BigOperators

namespace Cert.Gcn.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Every window's block index at the one grid point is zero on every axis. -/
theorem idx : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0 :=
  (by decide +kernel : ∀ t : Fin grid3.N, _)

/-- The pooled rows' block is the whole array. -/
theorem blk0 (c : Dev nD) (t : Fin cfg3.N) (p : Fin 512) (q : Fin 128) :
    (iblk3 V c 0 t : Vec Ideal S512x128 .f32) (ix2 p q) = (V c main_v60 : S512x128.Idx → Elt Ideal .f32) (ix2 p q) := by
  obtain ⟨e0, e1, -⟩ := idx t
  unfold iblk3
  rw [View.read_apply]
  show V c main_v60 _ = V c main_v60 _
  congr 1
  funext a
  apply Fin.ext
  match a with
  | ⟨0, _⟩ => show win3_0.index t 0 * 512 + 1 * p.val = p.val; rw [e0]; omega
  | ⟨1, _⟩ => show win3_0.index t 1 * 128 + 1 * q.val = q.val; rw [e1]; omega

/-- The weight matrix's block is the whole matrix. -/
theorem blk1 (c : Dev nD) (t : Fin cfg3.N) (q : Fin 128) (j : Fin 4) :
    (iblk3 V c 1 t : Vec Ideal S128x4 .bf16) (ix2 q j) = (V c main_v62 : S128x4.Idx → Elt Ideal .bf16) (ix2 q j) := by
  obtain ⟨-, -, e0, e1, -⟩ := idx t
  unfold iblk3
  rw [View.read_apply]
  show V c main_v62 _ = V c main_v62 _
  congr 1
  funext a
  apply Fin.ext
  match a with
  | ⟨0, _⟩ => show win3_1.index t 0 * 128 + 1 * q.val = q.val; rw [e0]; omega
  | ⟨1, _⟩ => show win3_1.index t 1 * 4 + 1 * j.val = j.val; rw [e1]; omega

/-- The bias's block is the whole vector. -/
theorem blk2 (c : Dev nD) (t : Fin cfg3.N) (j : Fin 4) :
    (iblk3 V c 2 t : Vec Ideal S4 .f32) (ix1 j) = (V c main_arg13 : S4.Idx → Elt Ideal .f32) (ix1 j) := by
  obtain ⟨-, -, -, -, e0, -⟩ := idx t
  unfold iblk3
  rw [View.read_apply]
  show V c main_arg13 _ = V c main_arg13 _
  congr 1
  funext a
  apply Fin.ext
  match a with
  | ⟨0, _⟩ => show win3_2.index t 0 * 4 + 1 * j.val = j.val; rw [e0]; omega

/-- Entry (p, j) of the output's block is entry (p, j) of the array. -/
theorem emb3 (t : Fin cfg3.N) (p : Fin 512) (j : Fin 4) :
    ((cfg3.win 3).blk t).view.emb (ix2 p j) = (ix2 p j : S512x4.Idx) := by
  obtain ⟨-, -, -, -, -, e0, e1⟩ := idx t
  funext a
  apply Fin.ext
  match a with
  | ⟨0, _⟩ => show win3_3.index t 0 * 512 + 1 * p.val = p.val; rw [e0]; omega
  | ⟨1, _⟩ => show win3_3.index t 1 * 4 + 1 * j.val = j.val; rw [e1]; omega

/-- What the point writes back is the read-out's function of the arrays the region finds, read through its block. -/
theorem flushed_eq (c : Dev nD) (t : Fin cfg3.N) :
    (dat3 V c).flushed 3 t = ((cfg3.win 3).blk t).view.read (Elt Ideal)
      (Gcn.readout (φ := .bf16) (V c main_v60) (V c main_v62) (V c main_arg13)) := by
  show (cfg3.win 3).cut (grid3.coords t) ((dat3 V c).after 3 t) = _
  rw [after3_3]
  unfold out3_3
  rw [View.canon_unit_zero hz2]
  simp only [View.ld_unit_zero (S := S512x128) hz2, View.ld_unit_zero (S := S128x4) hz2, View.ld_unit_zero (S := S4) hz1]
  funext y
  obtain ⟨p, j, rfl⟩ : ∃ (p : Fin 512) (j : Fin 4), y = ix2 p j := ⟨y 0, y 1, eq_ix2 y⟩
  rw [View.read_apply, emb3 t p j, Gcn.readout_apply]
  refine (Gcn.pay3_apply (iblk3 V c 0 t) (iblk3 V c 1 t) (iblk3 V c 2 t) p j).trans ?_
  refine congrArg₂ (· + ·) ?_ (blk2 V c t j)
  exact Finset.sum_congr rfl fun q _ => by rw [blk0 V c t p q, blk1 V c t q j]

/-- An index of the array is in the point's block iff each coordinate is in the block's range on its axis. -/
theorem mem_blk (t : Fin cfg3.N) (i : S512x4.Idx) :
    i ∈ ((cfg3.win 3).blk t).view.set ↔ ∀ a : Fin 2, win3_3.index t a * S512x4.size a ≤ (i a).val ∧ (i a).val < win3_3.index t a * S512x4.size a + S512x4.size a := by
  show i ∈ ((View.whole main_v63).slice (win3_3.rect t)).set ↔ _
  rw [View.set_slice_whole, Rect.mem_set_unit]
  exact Iff.rfl

/-- The one block is the whole result array. -/
theorem cover (i : S512x4.Idx) :
    ∃ t : Fin cfg3.N, (cfg3.win 3).flush t = true ∧ i ∈ ((cfg3.win 3).blk t).view.set := by
  have hi0 : (i 0).val < 512 := (i 0).isLt
  have hi1 : (i 1).val < 4 := (i 1).isLt
  refine ⟨t3_0, flush3_3 _, ?_⟩
  rw [mem_blk]
  obtain ⟨-, -, -, -, -, e0, e1⟩ := idx t3_0
  intro a
  match a with
  | ⟨0, _⟩ => show win3_3.index _ (0 : Fin 2) * 512 ≤ (i 0).val ∧ (i 0).val < win3_3.index _ (0 : Fin 2) * 512 + 512; rw [e0]; omega
  | ⟨1, _⟩ => show win3_3.index _ (1 : Fin 2) * 4 ≤ (i 1).val ∧ (i 1).val < win3_3.index _ (1 : Fin 2) * 4 + 4; rw [e1]; omega

/-- After the region its result array is P·W + b of the arrays the region was entered with. -/
theorem final (c : Dev nD) :
    (dat3 V c).arrAt 3 cfg3.N = Gcn.readout (φ := .bf16) (V c main_v60) (V c main_v62) (V c main_arg13) :=
  (dat3 V c).arrAt_eq_of_cover 3 _ (fun t _ => flushed_eq V c t) cover

end Cert.Gcn.Region3

end
-- ==== Proof.KernelValue.lean ====
/-
  The idealized kernel's result array is the network's function of its arguments.

  The run's contents at each boundary are a fold from the launch memory: a stretch of host operations applies them in
  order, a region replaces its result array by what its write-backs leave. Region by region, the result array is the
  layer's function of the arrays the region was entered with; those arrays are what the stretch before the region
  computed (the neighbour sums, the weights turned and rounded, where rounding is the identity at the ideal values)
  from the layer before, the edge list and the arguments, none of which an earlier region or stretch overwrites. So the
  first region leaves the first layer, the second the second, the third the third before any rectifier, and the read-out
  region the read-out of the mean pool.
-/
import proofs.«134977_j7816840479101_1_alg».proof.Proof.Gen.KernelIdeal.Frame
import proofs.«134977_j7816840479101_1_alg».proof.Proof.Network
import proofs.«134977_j7816840479101_1_alg».proof.Proof.Formats
import proofs.«134977_j7816840479101_1_alg».proof.Proof.Region0
import proofs.«134977_j7816840479101_1_alg».proof.Proof.Region1
import proofs.«134977_j7816840479101_1_alg».proof.Proof.Region2
import proofs.«134977_j7816840479101_1_alg».proof.Proof.Region3
import Idealize.ShloMosaic.Lib.StableHlo.Run

set_option maxRecDepth 16384

noncomputable section

namespace Cert.Gcn.KernelValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The edge list's two rows and the arguments, read at the later boundaries -/

theorem src_W2 (c : Dev nD) : W2 m ρ c (Proc.devRef .tc main_v1) = Gcn.edgeSrc (m ((c.tc : Thread nD τ).loc main_arg1)) := by
  rw [W2_of_ne m ρ c main_v1 (by decide)]
  show StableHlo.after hostOps0 (W0 m ρ c) (Proc.devRef .tc main_v1) = _
  after_results
  rfl

theorem dst_W2 (c : Dev nD) : W2 m ρ c (Proc.devRef .tc main_v3) = Gcn.edgeDst (m ((c.tc : Thread nD τ).loc main_arg1)) := by
  rw [W2_of_ne m ρ c main_v3 (by decide)]
  show StableHlo.after hostOps0 (W0 m ρ c) (Proc.devRef .tc main_v3) = _
  after_results
  rfl

theorem src_W4 (c : Dev nD) : W4 m ρ c (Proc.devRef .tc main_v1) = Gcn.edgeSrc (m ((c.tc : Thread nD τ).loc main_arg1)) := by
  rw [W4_of_ne m ρ c main_v1 (by decide)]
  show StableHlo.after hostOps1 (W2 m ρ c) (Proc.devRef .tc main_v1) = _
  after_results
  exact src_W2 m ρ c

theorem dst_W4 (c : Dev nD) : W4 m ρ c (Proc.devRef .tc main_v3) = Gcn.edgeDst (m ((c.tc : Thread nD τ).loc main_arg1)) := by
  rw [W4_of_ne m ρ c main_v3 (by decide)]
  show StableHlo.after hostOps1 (W2 m ρ c) (Proc.devRef .tc main_v3) = _
  after_results
  exact dst_W2 m ρ c

theorem arg1_W2 (c : Dev nD) : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results

theorem arg2_W2 (c : Dev nD) : W2 m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results

theorem arg6_W2 (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results

theorem arg7_W2 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results

theorem arg8_W2 (c : Dev nD) : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results

theorem arg9_W2 (c : Dev nD) : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results

theorem arg10_W2 (c : Dev nD) : W2 m ρ c (Proc.devRef .tc main_arg10) = m ((c.tc : Thread nD τ).loc main_arg10) := by
  rw [W2_of_ne m ρ c main_arg10 (by decide)]
  show StableHlo.after hostOps0 (W0 m ρ c) (Proc.devRef .tc main_arg10) = _
  after_results

theorem arg11_W2 (c : Dev nD) : W2 m ρ c (Proc.devRef .tc main_arg11) = m ((c.tc : Thread nD τ).loc main_arg11) := by
  rw [W2_of_ne m ρ c main_arg11 (by decide)]
  show StableHlo.after hostOps0 (W0 m ρ c) (Proc.devRef .tc main_arg11) = _
  after_results

theorem arg12_W2 (c : Dev nD) : W2 m ρ c (Proc.devRef .tc main_arg12) = m ((c.tc : Thread nD τ).loc main_arg12) := by
  rw [W2_of_ne m ρ c main_arg12 (by decide)]
  show StableHlo.after hostOps0 (W0 m ρ c) (Proc.devRef .tc main_arg12) = _
  after_results

theorem arg13_W2 (c : Dev nD) : W2 m ρ c (Proc.devRef .tc main_arg13) = m ((c.tc : Thread nD τ).loc main_arg13) := by
  rw [W2_of_ne m ρ c main_arg13 (by decide)]
  show StableHlo.after hostOps0 (W0 m ρ c) (Proc.devRef .tc main_arg13) = _
  after_results

theorem arg1_W4 (c : Dev nD) : W4 m ρ c (Proc.devRef .tc main_arg1) = m ((c.tc : Thread nD τ).loc main_arg1) := by
  rw [W4_of_ne m ρ c main_arg1 (by decide)]
  show StableHlo.after hostOps1 (W2 m ρ c) (Proc.devRef .tc main_arg1) = _
  after_results
  exact arg1_W2 m ρ c

theorem arg2_W4 (c : Dev nD) : W4 m ρ c (Proc.devRef .tc main_arg2) = m ((c.tc : Thread nD τ).loc main_arg2) := by
  rw [W4_of_ne m ρ c main_arg2 (by decide)]
  show StableHlo.after hostOps1 (W2 m ρ c) (Proc.devRef .tc main_arg2) = _
  after_results
  exact arg2_W2 m ρ c

theorem arg9_W4 (c : Dev nD) : W4 m ρ c (Proc.devRef .tc main_arg9) = m ((c.tc : Thread nD τ).loc main_arg9) := by
  rw [W4_of_ne m ρ c main_arg9 (by decide)]
  show StableHlo.after hostOps1 (W2 m ρ c) (Proc.devRef .tc main_arg9) = _
  after_results
  exact arg9_W2 m ρ c

theorem arg10_W4 (c : Dev nD) : W4 m ρ c (Proc.devRef .tc main_arg10) = m ((c.tc : Thread nD τ).loc main_arg10) := by
  rw [W4_of_ne m ρ c main_arg10 (by decide)]
  show StableHlo.after hostOps1 (W2 m ρ c) (Proc.devRef .tc main_arg10) = _
  after_results
  exact arg10_W2 m ρ c

theorem arg11_W4 (c : Dev nD) : W4 m ρ c (Proc.devRef .tc main_arg11) = m ((c.tc : Thread nD τ).loc main_arg11) := by
  rw [W4_of_ne m ρ c main_arg11 (by decide)]
  show StableHlo.after hostOps1 (W2 m ρ c) (Proc.devRef .tc main_arg11) = _
  after_results
  exact arg11_W2 m ρ c

theorem arg12_W4 (c : Dev nD) : W4 m ρ c (Proc.devRef .tc main_arg12) = m ((c.tc : Thread nD τ).loc main_arg12) := by
  rw [W4_of_ne m ρ c main_arg12 (by decide)]
  show StableHlo.after hostOps1 (W2 m ρ c) (Proc.devRef .tc main_arg12) = _
  after_results
  exact arg12_W2 m ρ c

theorem arg13_W4 (c : Dev nD) : W4 m ρ c (Proc.devRef .tc main_arg13) = m ((c.tc : Thread nD τ).loc main_arg13) := by
  rw [W4_of_ne m ρ c main_arg13 (by decide)]
  show StableHlo.after hostOps1 (W2 m ρ c) (Proc.devRef .tc main_arg13) = _
  after_results
  exact arg13_W2 m ρ c

theorem arg2_W6 (c : Dev nD) : W6 m ρ c (Proc.devRef .tc main_arg2) = m ((c.tc : Thread nD τ).loc main_arg2) := by
  rw [W6_of_ne m ρ c main_arg2 (by decide)]
  show StableHlo.after hostOps2 (W4 m ρ c) (Proc.devRef .tc main_arg2) = _
  after_results
  exact arg2_W4 m ρ c

theorem arg12_W6 (c : Dev nD) : W6 m ρ c (Proc.devRef .tc main_arg12) = m ((c.tc : Thread nD τ).loc main_arg12) := by
  rw [W6_of_ne m ρ c main_arg12 (by decide)]
  show StableHlo.after hostOps2 (W4 m ρ c) (Proc.devRef .tc main_arg12) = _
  after_results
  exact arg12_W4 m ρ c

theorem arg13_W6 (c : Dev nD) : W6 m ρ c (Proc.devRef .tc main_arg13) = m ((c.tc : Thread nD τ).loc main_arg13) := by
  rw [W6_of_ne m ρ c main_arg13 (by decide)]
  show StableHlo.after hostOps2 (W4 m ρ c) (Proc.devRef .tc main_arg13) = _
  after_results
  exact arg13_W4 m ρ c

/-! ## What each region is entered with -/

theorem in0_agg (c : Dev nD) :
    StableHlo.after hostOps0 (W0 m ρ c) (Proc.devRef .tc main_v13) = Gcn.agg50 (m ((c.tc : Thread nD τ).loc main_arg0)) (m ((c.tc : Thread nD τ).loc main_arg1)) := by
  after_results_simp
  rfl

theorem in0_x (c : Dev nD) : StableHlo.after hostOps0 (W0 m ρ c) (Proc.devRef .tc main_arg0) = m ((c.tc : Thread nD τ).loc main_arg0) := by
  after_results_simp

theorem in0_w (c : Dev nD) :
    StableHlo.after hostOps0 (W0 m ρ c) (Proc.devRef .tc main_v15)
      = (truncf (F := Ideal) (φ := .f32) .bf16 (transpose Cert.ReferenceIdeal.S50x128 [1, 0] ((m ((c.tc : Thread nD τ).loc main_arg3)) : FVec Ideal Cert.ReferenceIdeal.S128x50 .f32) Cert.ReferenceIdeal.Gen.transposes_S128x50_S50x128_1_0) (by decide) : FVec Ideal Cert.ReferenceIdeal.S50x128 .bf16) := by
  after_results_simp

theorem in0_wr (c : Dev nD) :
    StableHlo.after hostOps0 (W0 m ρ c) (Proc.devRef .tc main_v17)
      = (truncf (F := Ideal) (φ := .f32) .bf16 (transpose Cert.ReferenceIdeal.S50x128 [1, 0] ((m ((c.tc : Thread nD τ).loc main_arg5)) : FVec Ideal Cert.ReferenceIdeal.S128x50 .f32) Cert.ReferenceIdeal.Gen.transposes_S128x50_S50x128_1_0) (by decide) : FVec Ideal Cert.ReferenceIdeal.S50x128 .bf16) := by
  after_results_simp

theorem in0_b (c : Dev nD) : StableHlo.after hostOps0 (W0 m ρ c) (Proc.devRef .tc main_arg4) = m ((c.tc : Thread nD τ).loc main_arg4) := by
  after_results_simp

/-- After the first region its result array is the first layer. -/
theorem layer1_eq (c : Dev nD) :
    W2 m ρ c (Proc.devRef .tc main_v18) = Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W2_arr m ρ c 5).trans ((Region0.final (V1 m ρ) c).trans ?_)
  show Gcn.relu (Gcn.dense50 (φ := .bf16)
      (StableHlo.after hostOps0 (W0 m ρ c) (Proc.devRef .tc main_v13)) (StableHlo.after hostOps0 (W0 m ρ c) (Proc.devRef .tc main_arg0))
      (StableHlo.after hostOps0 (W0 m ρ c) (Proc.devRef .tc main_v15)) (StableHlo.after hostOps0 (W0 m ρ c) (Proc.devRef .tc main_v17))
      (StableHlo.after hostOps0 (W0 m ρ c) (Proc.devRef .tc main_arg4))) = _
  rw [in0_agg, in0_x, in0_w, in0_wr, in0_b, Gcn.dense50_truncf]
  rfl

theorem in1_agg (c : Dev nD) :
    StableHlo.after hostOps1 (W2 m ρ c) (Proc.devRef .tc main_v28) = Gcn.agg128 (Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) := by
  after_results_simp
  rw [layer1_eq, src_W2, dst_W2]
  rfl

theorem in1_x (c : Dev nD) : StableHlo.after hostOps1 (W2 m ρ c) (Proc.devRef .tc main_v18) = Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  after_results_simp
  exact layer1_eq m ρ c

theorem in1_w (c : Dev nD) :
    StableHlo.after hostOps1 (W2 m ρ c) (Proc.devRef .tc main_v30)
      = (truncf (F := Ideal) (φ := .f32) .bf16 (transpose Cert.ReferenceIdeal.S128x128 [1, 0] ((m ((c.tc : Thread nD τ).loc main_arg6)) : FVec Ideal Cert.ReferenceIdeal.S128x128 .f32) Cert.ReferenceIdeal.Gen.transposes_S128x128_S128x128_1_0) (by decide) : FVec Ideal Cert.ReferenceIdeal.S128x128 .bf16) := by
  after_results_simp
  rw [arg6_W2]

theorem in1_wr (c : Dev nD) :
    StableHlo.after hostOps1 (W2 m ρ c) (Proc.devRef .tc main_v32)
      = (truncf (F := Ideal) (φ := .f32) .bf16 (transpose Cert.ReferenceIdeal.S128x128 [1, 0] ((m ((c.tc : Thread nD τ).loc main_arg8)) : FVec Ideal Cert.ReferenceIdeal.S128x128 .f32) Cert.ReferenceIdeal.Gen.transposes_S128x128_S128x128_1_0) (by decide) : FVec Ideal Cert.ReferenceIdeal.S128x128 .bf16) := by
  after_results_simp
  rw [arg8_W2]

theorem in1_b (c : Dev nD) : StableHlo.after hostOps1 (W2 m ρ c) (Proc.devRef .tc main_arg7) = m ((c.tc : Thread nD τ).loc main_arg7) := by
  after_results_simp
  exact arg7_W2 m ρ c

/-- After the second region its result array is the second layer. -/
theorem layer2_eq (c : Dev nD) :
    W4 m ρ c (Proc.devRef .tc main_v33) = Gcn.relu (Gcn.layerLin (Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) := by
  refine (W4_arr m ρ c 5).trans ((Region1.final (V3 m ρ) c).trans ?_)
  show Gcn.relu (Gcn.dense128 (φ := .bf16)
      (StableHlo.after hostOps1 (W2 m ρ c) (Proc.devRef .tc main_v28)) (StableHlo.after hostOps1 (W2 m ρ c) (Proc.devRef .tc main_v18))
      (StableHlo.after hostOps1 (W2 m ρ c) (Proc.devRef .tc main_v30)) (StableHlo.after hostOps1 (W2 m ρ c) (Proc.devRef .tc main_v32))
      (StableHlo.after hostOps1 (W2 m ρ c) (Proc.devRef .tc main_arg7))) = _
  rw [in1_agg, in1_x, in1_w, in1_wr, in1_b, Gcn.dense128_truncf]
  rfl

theorem in2_agg (c : Dev nD) :
    StableHlo.after hostOps2 (W4 m ρ c) (Proc.devRef .tc main_v43) = Gcn.agg128 (Gcn.relu (Gcn.layerLin (Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8)))) (m ((c.tc : Thread nD τ).loc main_arg1)) := by
  after_results_simp
  rw [layer2_eq, src_W4, dst_W4]
  rfl

theorem in2_x (c : Dev nD) : StableHlo.after hostOps2 (W4 m ρ c) (Proc.devRef .tc main_v33) = Gcn.relu (Gcn.layerLin (Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) := by
  after_results_simp
  exact layer2_eq m ρ c

theorem in2_w (c : Dev nD) :
    StableHlo.after hostOps2 (W4 m ρ c) (Proc.devRef .tc main_v45)
      = (truncf (F := Ideal) (φ := .f32) .bf16 (transpose Cert.ReferenceIdeal.S128x128 [1, 0] ((m ((c.tc : Thread nD τ).loc main_arg9)) : FVec Ideal Cert.ReferenceIdeal.S128x128 .f32) Cert.ReferenceIdeal.Gen.transposes_S128x128_S128x128_1_0) (by decide) : FVec Ideal Cert.ReferenceIdeal.S128x128 .bf16) := by
  after_results_simp
  rw [arg9_W4]

theorem in2_wr (c : Dev nD) :
    StableHlo.after hostOps2 (W4 m ρ c) (Proc.devRef .tc main_v47)
      = (truncf (F := Ideal) (φ := .f32) .bf16 (transpose Cert.ReferenceIdeal.S128x128 [1, 0] ((m ((c.tc : Thread nD τ).loc main_arg11)) : FVec Ideal Cert.ReferenceIdeal.S128x128 .f32) Cert.ReferenceIdeal.Gen.transposes_S128x128_S128x128_1_0) (by decide) : FVec Ideal Cert.ReferenceIdeal.S128x128 .bf16) := by
  after_results_simp
  rw [arg11_W4]

theorem in2_b (c : Dev nD) : StableHlo.after hostOps2 (W4 m ρ c) (Proc.devRef .tc main_arg10) = m ((c.tc : Thread nD τ).loc main_arg10) := by
  after_results_simp
  exact arg10_W4 m ρ c

/-- After the third region its result array is the third layer, which has no rectifier. -/
theorem layer3_eq (c : Dev nD) :
    W6 m ρ c (Proc.devRef .tc main_v48) = Gcn.layerLin (Gcn.relu (Gcn.layerLin (Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8)))) (m ((c.tc : Thread nD τ).loc main_arg1)) (m ((c.tc : Thread nD τ).loc main_arg9)) (m ((c.tc : Thread nD τ).loc main_arg10)) (m ((c.tc : Thread nD τ).loc main_arg11)) := by
  refine (W6_arr m ρ c 5).trans ((Region2.final (V5 m ρ) c).trans ?_)
  show Gcn.dense128 (φ := .bf16)
      (StableHlo.after hostOps2 (W4 m ρ c) (Proc.devRef .tc main_v43)) (StableHlo.after hostOps2 (W4 m ρ c) (Proc.devRef .tc main_v33))
      (StableHlo.after hostOps2 (W4 m ρ c) (Proc.devRef .tc main_v45)) (StableHlo.after hostOps2 (W4 m ρ c) (Proc.devRef .tc main_v47))
      (StableHlo.after hostOps2 (W4 m ρ c) (Proc.devRef .tc main_arg10)) = _
  rw [in2_agg, in2_x, in2_w, in2_wr, in2_b, Gcn.dense128_truncf]
  rfl

theorem in3_p (c : Dev nD) :
    StableHlo.after hostOps3 (W6 m ρ c) (Proc.devRef .tc main_v60) = Gcn.pool (Gcn.layerLin (Gcn.relu (Gcn.layerLin (Gcn.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8)))) (m ((c.tc : Thread nD τ).loc main_arg1)) (m ((c.tc : Thread nD τ).loc main_arg9)) (m ((c.tc : Thread nD τ).loc main_arg10)) (m ((c.tc : Thread nD τ).loc main_arg11))) (m ((c.tc : Thread nD τ).loc main_arg2)) := by
  after_results_simp
  rw [layer3_eq, arg2_W6]
  rfl

theorem in3_w (c : Dev nD) :
    StableHlo.after hostOps3 (W6 m ρ c) (Proc.devRef .tc main_v62)
      = (truncf (F := Ideal) (φ := .f32) .bf16 (transpose Cert.ReferenceIdeal.S128x4 [1, 0] ((m ((c.tc : Thread nD τ).loc main_arg12)) : FVec Ideal Cert.ReferenceIdeal.S4x128 .f32) Cert.ReferenceIdeal.Gen.transposes_S4x128_S128x4_1_0) (by decide) : FVec Ideal Cert.ReferenceIdeal.S128x4 .bf16) := by
  after_results_simp
  rw [arg12_W6]

theorem in3_b (c : Dev nD) : StableHlo.after hostOps3 (W6 m ρ c) (Proc.devRef .tc main_arg13) = m ((c.tc : Thread nD τ).loc main_arg13) := by
  after_results_simp
  exact arg13_W6 m ρ c

/-- After the read-out region the result array is the network's function of the arguments. -/
theorem result_eq (c : Dev nD) :
    W8 m ρ c (Proc.devRef .tc main_v63)
      = Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W8_arr m ρ c 3).trans ((Region3.final (V7 m ρ) c).trans ?_)
  show Gcn.readout (φ := .bf16)
      (StableHlo.after hostOps3 (W6 m ρ c) (Proc.devRef .tc main_v60)) (StableHlo.after hostOps3 (W6 m ρ c) (Proc.devRef .tc main_v62))
      (StableHlo.after hostOps3 (W6 m ρ c) (Proc.devRef .tc main_arg13)) = _
  rw [in3_p, in3_w, in3_b, Gcn.readout_truncf]
  rfl

end Cert.Gcn.KernelValue

end
-- ==== Proof.RefValue.lean ====
/-
  The reference's result is the network's function of its arguments: the composed term its run ends at, read layer by
  layer, is the three layers, the mean pool and the read-out applied to the launch contents of the argument arrays.
-/
import proofs.«134977_j7816840479101_1_alg».proof.Proof.Gen.ReferenceIdeal.Run
import proofs.«134977_j7816840479101_1_alg».proof.Proof.Network

set_option maxRecDepth 16384

noncomputable section

namespace Cert.Gcn

open Idealize.ShloMosaic Idealize.ShloMosaic.TcCoe Idealize.SL.Sem Cert.ReferenceIdeal Cert.ReferenceIdeal.Gen

/-- The reference's composed result term is the network applied to the argument arrays. -/
theorem reference_eq (m : (ℓ : Loc nD τ sig) → Buf (Elt Ideal) ℓ) (c : Dev nD) :
    Cert.ReferenceIdeal.Value.res_main_v76 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) := by
  unfold Cert.ReferenceIdeal.Value.res_main_v76
  rfl

end Cert.Gcn

end
-- ==== Proof.lean ====
/-
  A three-layer graph convolution network with a mean pool and a read-out, as a kernel and as a reference.

  Both programs compute, from node features X, an edge list, a graph assignment and the layers' weights,
      h₁ = max((S(X)·W₁ᵀ + b₁) + X·W₁'ᵀ, 0),  h₂ = max((S(h₁)·W₂ᵀ + b₂) + h₁·W₂'ᵀ, 0),  h₃ = (S(h₂)·W₃ᵀ + b₃) + h₂·W₃'ᵀ,
      out = mean-pool(h₃)·W_linᵀ + b_lin,
  where S sums, into each node, the feature rows of the sources of its incoming edges. The reference does all of it with
  host operations. The kernel keeps the gathers, the scatter-adds and the pool on the host and runs the dense half of each
  layer and the read-out as kernel regions over row blocks, with the weights rounded to a narrower float format and the
  bias added after both products, (S·W + X·W') + b.

  At the ideal values a change of float format is the identity, a matrix product accumulated into zero is the plain
  product, and a sum of three extended reals does not depend on how it is grouped or ordered; so each region leaves in
  its result array exactly the reference's layer of the arrays it was entered with, and the two programs end with the
  same function of their arguments, entry by entry. No finiteness of the inputs is used.

  The three frames are the generated ones (the reference's is its run with the result dropped); the idealization
  rewrote nothing, so the preservation claim is trivial.
-/
import proofs.«134977_j7816840479101_1_alg».proof.Defs
import proofs.«134977_j7816840479101_1_alg».proof.Proof.Gen.Kernel
import proofs.«134977_j7816840479101_1_alg».proof.Proof.Gen.Kernel.Skeleton
import proofs.«134977_j7816840479101_1_alg».proof.Proof.Gen.Kernel.Launch
import proofs.«134977_j7816840479101_1_alg».proof.Proof.Gen.Kernel.Points
import proofs.«134977_j7816840479101_1_alg».proof.Proof.Gen.Kernel.Frame
import proofs.«134977_j7816840479101_1_alg».proof.Proof.Gen.KernelIdeal
import proofs.«134977_j7816840479101_1_alg».proof.Proof.Gen.KernelIdeal.Skeleton
import proofs.«134977_j7816840479101_1_alg».proof.Proof.Gen.KernelIdeal.Launch
import proofs.«134977_j7816840479101_1_alg».proof.Proof.Gen.KernelIdeal.Points
import proofs.«134977_j7816840479101_1_alg».proof.Proof.Gen.KernelIdeal.Frame
import proofs.«134977_j7816840479101_1_alg».proof.Proof.Gen.ReferenceIdeal
import proofs.«134977_j7816840479101_1_alg».proof.Proof.Gen.ReferenceIdeal.Run
import proofs.«134977_j7816840479101_1_alg».proof.Proof.Gen.Pre_finite_inputs
import proofs.«134977_j7816840479101_1_alg».proof.Proof.KernelRun
import proofs.«134977_j7816840479101_1_alg».proof.Proof.KernelValue
import proofs.«134977_j7816840479101_1_alg».proof.Proof.RefValue
import Idealize.ShloMosaic.Adequacy
import Idealize.ShloMosaic.Init

noncomputable section

namespace Cert.Proof

open Idealize.ShloMosaic Idealize.ShloMosaic.TcCoe Idealize.SL.Sem

/-- Run from memories that agree on the arguments, the idealized kernel and the idealized reference both terminate with
    the network's function of the arguments in their result arrays, and their arguments unchanged. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.Gcn.KernelValue.result_eq m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.Gcn.reference_eq]
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
